-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S1 : Shape := ⟨1, ![1]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4x4096x3 .f32) (main_arg1 : FVec F S4x4096x3 .f32) (main_arg2 : FVec F S1 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x4096x3 : Shape := ⟨3, ![4, 4096, 3]⟩
abbrev S1 : Shape := ⟨1, ![1]⟩
abbrev S4x3x4096 : Shape := ⟨3, ![4, 3, 4096]⟩
abbrev S_ : Shape := ⟨0, ![]⟩
abbrev S4x4096 : Shape := ⟨2, ![4, 4096]⟩
abbrev S4x3x512 : Shape := ⟨3, ![4, 3, 512]⟩
abbrev S4x512 : Shape := ⟨2, ![4, 512]⟩
abbrev S4x1x512 : Shape := ⟨3, ![4, 1, 512]⟩
abbrev S4x512x1 : Shape := ⟨3, ![4, 512, 1]⟩
abbrev S4x512x512 : Shape := ⟨3, ![4, 512, 512]⟩
abbrev S1x1 : Shape := ⟨2, ![1, 1]⟩
abbrev S4 : Shape := ⟨1, ![4]⟩

abbrev nBuf : Space → Nat
  | .hbm => 24
  | .vmem => 11
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S1, .f32⟩
  | .hbm, ⟨3, _⟩ => ⟨S4x3x4096, .f32⟩
  | .hbm, ⟨4, _⟩ => ⟨S4x3x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096x3, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S1x1, .f32⟩
  | .hbm, ⟨17, _⟩ => ⟨S4x4096, .f32⟩
  | .hbm, ⟨18, _⟩ => ⟨S4x4096, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .local _ .vmem, ⟨0, _⟩ => ⟨S4x3x4096, .f32⟩
  | .local _ .vmem, ⟨1, _⟩ => ⟨S4x3x512, .f32⟩
  | .local _ .vmem, ⟨2, _⟩ => ⟨S4x3x512, .f32⟩
  | .local _ .vmem, ⟨3, _⟩ => ⟨S4x4096, .f32⟩
  | .local _ .vmem, ⟨4, _⟩ => ⟨S4x4096, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | .local _ .vmem, ⟨9, _⟩ => ⟨S4x512, .f32⟩
  | .local _ .vmem, ⟨10, _⟩ => ⟨S4x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v13 : BitVec 32 := Scalar.muli arg8 c512_i32
  v13
def k0_off1 (k0_t1 : Fin k0_t1_loop.trips) : Fin 3 → Nat :=
  let c0_10 : Index := 0#32
  let c0_11 : Index := 0#32
  let c0_i32 : BitVec 32 := 0#32
  let c1_i32 : BitVec 32 := 1#32
  let arg8 : BitVec 32 := Scf.iv c0_i32 c1_i32 k0_t1
  let c512_i32 : BitVec 32 := 512#32
  let v13 : BitVec 32 := Scalar.muli arg8 c512_i32
  let v14 : BitVec 32 := v13
  let v15 : Index := Scalar.indexCast v14
  ![0, 0, v15.toNat]
def k0_off2 (k0_t1 : Fin k0_t1_loop.trips) : Fin 2 → Nat :=
  let c0_12 : Index := 0#32
  let c0_i32 : BitVec 32 := 0#32
  let c1_i32 : BitVec 32 := 1#32
  let arg8 : BitVec 32 := Scf.iv c0_i32 c1_i32 k0_t1
  let c512_i32 : BitVec 32 := 512#32
  let v13 : BitVec 32 := Scalar.muli arg8 c512_i32
  let v14 : BitVec 32 := v13
  let v18 : Index := Scalar.indexCast v14
  ![0, v18.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4x4096x3_S4x3x4096_0_2_1 : S4x4096x3.Transposes [0, 2, 1] S4x3x4096
  reducesTo_S4x4096x3_S4x4096_d2 : S4x4096x3.ReducesTo [2] S4x4096
  h_S_ : 0 < S_.numel
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  slices_S4x3x512_o0_0_0_S4x1x512 : S4x3x512.Slices ![0, 0, 0] S4x1x512
  shapeCasts_S4x1x512_S4x512 : S4x1x512.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x3x512_o0_1_0_S4x1x512 : S4x3x512.Slices ![0, 1, 0] S4x1x512
  slices_S4x3x512_o0_2_0_S4x1x512 : S4x3x512.Slices ![0, 2, 0] S4x1x512
  reduces_S4x512x512_S4x512 : S4x512x512.Reduces [2] S4x512
  bcast_S1_S1x1_1 : S1.BroadcastsInDim S1x1 (![1] : Fin 1 → Fin S1x1.rank)
  bcast_S1x1_S4x4096_0_1 : S1x1.BroadcastsInDim S4x4096 (![0, 1] : Fin 2 → Fin S4x4096.rank)
  reducesTo_S4x4096_S4_d1 : S4x4096.ReducesTo [1] S4
  bcast_S_S4 : S_.BroadcastsInDim S4 (![] : Fin 0 → Fin S4.rank)
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x3x512.size a ≤ S4x3x4096.size a
  k0_off2_inb : ∀ k0_t1 : Fin k0_t1_loop.trips, ∀ a, (k0_off2 k0_t1) a + S4x512.size a ≤ S4x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x3x4096.size a ≤ S4x3x4096.size a
  hwx0_0 : ∀ i : grid0.Coords, EltTy.bits .f32 = 32 ∨ (Rect.block (s := S4x3x4096) S4x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x4096.size a
  hwx0_1 : ∀ i : grid0.Coords, EltTy.bits .f32 = 32 ∨ (Rect.block (s := S4x3x4096) S4x3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x4096.size a
  hwx0_2 : ∀ i : grid0.Coords, EltTy.bits .f32 = 32 ∨ (Rect.block (s := S4x4096) S4x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x4096.size a
  hwx0_4 : ∀ i : grid0.Coords, EltTy.bits .f32 = 32 ∨ (Rect.block (s := S4x4096) S4x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x4096.size a
  hwx0_5 : ∀ i : grid0.Coords, EltTy.bits .f32 = 32 ∨ (Rect.block (s := S4x4096) S4x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x4096.size a
  hwx0_6 : ∀ i : grid0.Coords, EltTy.bits .f32 = 32 ∨ (Rect.block (s := S4x4096) S4x512.size (cc0_transform_6 i) (hinb0_6 i)).WholeWords (EltTy.packing .f32)

variable [Facts₀]

abbrev win0_0 : Pipeline.Window sig grid0 :=
  Pipeline.Window.ofSpec (Memref.whole main_v0) S4x3x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S1 : Shape := ⟨1, ![1]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S1x1 : Shape := ⟨2, ![1, 1]⟩
abbrev S4 : Shape := ⟨1, ![4]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S1, .f32⟩
  | .hbm, ⟨3, _⟩ => ⟨S4x4096x3, .f32⟩
  | .hbm, ⟨4, _⟩ => ⟨S_, .f32⟩
  | .hbm, ⟨5, _⟩ => ⟨S4x4096, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S_, .f32⟩
  | .hbm, ⟨12, _⟩ => ⟨S4x4096, .f32⟩
  | .hbm, ⟨13, _⟩ => ⟨S4x4096x4096, .f32⟩
  | .hbm, ⟨14, _⟩ => ⟨S4x4096x1, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x1x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S1x1, .f32⟩
  | .hbm, ⟨42, _⟩ => ⟨S4x4096, .f32⟩
  | .hbm, ⟨43, _⟩ => ⟨S4x4096, .f32⟩
  | .hbm, ⟨44, _⟩ => ⟨S_, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S1_S1x1_1 : S1.BroadcastsInDim S1x1 (![1] : Fin 1 → Fin S1x1.rank)
  bcast_S1x1_S4x4096_0_1 : S1x1.BroadcastsInDim S4x4096 (![0, 1] : Fin 2 → Fin S4x4096.rank)
  reducesTo_S4x4096_S4_d1 : S4x4096.ReducesTo [1] S4
  bcast_S_S4 : S_.BroadcastsInDim S4 (![] : Fin 0 → Fin S4.rank)
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.BodyRun.lean ====
/-
  What one call of the kernel body leaves in its output block, as a value (any float instance).

  The body loads three blocks whole — the squared norms s2 and the coordinate sums sum2 of 512 points of the second
  contour, and those points' coordinates c2 — then runs a counted loop of eight trips. Trip k loads, at offset 512·k
  along the point axis, 512 points of the first contour (coordinates c1, squared norms s1, coordinate sums sum1), forms
  the 512 × 512 table of squared distances between the two sets of points, takes each row's least entry and joins it by
  `min` to the value carried from the earlier trips (which starts at +∞). After the loop the body stores, over the
  whole output block, sqrt(max(carried value, 0)).

  `trip_value` says what one trip makes of the carried value; `body_value` says what the output block ends holding:
  the last step applied to the value carried out of the loop. The carried value itself is the generated recursion
  `st_k0_t1` over the trips, which `trip_step` unfolds one trip at a time.
-/
import proofs.«158326_j77386720740127_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyRun

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The 512 points of the first contour that trip `k` reads: their coordinates, out of the whole array `x0`. -/
def chunk3 (x0 : Vec F S4x3x4096 .f32) (k : Fin k0_t1_loop.trips) : Vec F S4x3x512 .f32 :=
  View.ld x0 (Rect.unit (s := S4x3x4096) (k0_off1 k) S4x3x512.size (k0_off1_inb k))
/-- The same 512 points' entries of a per-point array `x` (the squared norms, or the coordinate sums). -/
def chunk2 (x : Vec F S4x4096 .f32) (k : Fin k0_t1_loop.trips) : Vec F S4x512 .f32 :=
  View.ld x (Rect.unit (s := S4x4096) (k0_off2 k) S4x512.size (k0_off2_inb k))

/-- ONE TRIP: from the carried value `acc`, trip `k` yields the body's last payload of `acc` and of the two tables
    it forms from the second contour's block (`v0`, `v2`, `v4`: s2, sum2, c2) and the first contour's 512 points at
    offset 512·k (read out of the whole buffers, which hold `x0`, `x2`, `x3`: c1, s1, sum1). -/
theorem trip_value (𝒱 : Variants) (c : Dev nD) (bd : Option 𝒱.V) (i : grid0.Coords) (arg1 : Memref sig .tc .vmem S4x3x4096 .f32) (harg1 : arg1.IsWhole) (arg2 : Memref sig .tc .vmem S4x3x512 .f32) (harg2 : arg2.IsWhole) (arg3 : Memref sig .tc .vmem S4x4096 .f32) (harg3 : arg3.IsWhole) (arg4 : Memref sig .tc .vmem S4x4096 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole)
    (v0 : Vec F S4x512 .f32) (v2 : Vec F S4x512 .f32) (v4 : Vec F S4x3x512 .f32)
    (x0 : Vec F S4x3x4096 .f32) (x2 : Vec F S4x4096 .f32) (x3 : Vec F S4x4096 .f32)
    (k : Fin k0_t1_loop.trips) (acc : FVec F S4x512 .f32) :
    tripR_k0_t1 𝒱 c bd i arg1 harg1 arg2 harg2 arg3 harg3 arg4 harg4 arg5 harg5 arg6 harg6 arg7 harg7 v0 v2 v4 (harg1.unread x0) (harg3.unread x2) (harg4.unread x3) k acc
      = k0_pay5 acc (k0_pay7 (k0_pay1 v0) (k0_pay3 v4) (chunk3 x0 k) (chunk2 x2 k)) (k0_pay8 (k0_pay2 v2) (chunk2 x3 k)) := by
  unfold tripR_k0_t1 trip_k0_t1
  dsimp only
  sl_unfold_words
  simp only [View.readAt_eq_ld, harg1.read_unread, harg3.read_unread, harg4.read_unread]
  rfl

/-- The carried value after trip `k` is trip `k`'s yield of the carried value before it. -/
theorem trip_step (𝒱 : Variants) (c : Dev nD) (bd : Option 𝒱.V) (i : grid0.Coords) (arg1 : Memref sig .tc .vmem S4x3x4096 .f32) (harg1 : arg1.IsWhole) (arg2 : Memref sig .tc .vmem S4x3x512 .f32) (harg2 : arg2.IsWhole) (arg3 : Memref sig .tc .vmem S4x4096 .f32) (harg3 : arg3.IsWhole) (arg4 : Memref sig .tc .vmem S4x4096 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole)
    (v0 : Vec F S4x512 .f32) (v2 : Vec F S4x512 .f32) (v4 : Vec F S4x3x512 .f32)
    (x0 : Vec F S4x3x4096 .f32) (x2 : Vec F S4x4096 .f32) (x3 : Vec F S4x4096 .f32)
    (init : FVec F S4x512 .f32) (k : Fin k0_t1_loop.trips) :
    st_k0_t1 𝒱 c bd i arg1 harg1 arg2 harg2 arg3 harg3 arg4 harg4 arg5 harg5 arg6 harg6 arg7 harg7 v0 v2 v4 (harg1.unread x0) (harg3.unread x2) (harg4.unread x3) init (k.val + 1)
      = k0_pay5 (st_k0_t1 𝒱 c bd i arg1 harg1 arg2 harg2 arg3 harg3 arg4 harg4 arg5 harg5 arg6 harg6 arg7 harg7 v0 v2 v4 (harg1.unread x0) (harg3.unread x2) (harg4.unread x3) init k.val)
          (k0_pay7 (k0_pay1 v0) (k0_pay3 v4) (chunk3 x0 k) (chunk2 x2 k)) (k0_pay8 (k0_pay2 v2) (chunk2 x3 k)) := by
  rw [st_k0_t1_succ, trip_value]

/-- THE BODY: on buffers holding `x0 … x5` (c1, c2's block, s1, sum1, s2's block, sum2's block) the output block
    ends holding the last payload — sqrt(max(·, 0)) — of the value the eight trips carry out, started at +∞. -/
theorem body_value (c : Dev nD) (i : grid0.Coords) (arg1 : Memref sig .tc .vmem S4x3x4096 .f32) (harg1 : arg1.IsWhole) (arg2 : Memref sig .tc .vmem S4x3x512 .f32) (harg2 : arg2.IsWhole) (arg3 : Memref sig .tc .vmem S4x4096 .f32) (harg3 : arg3.IsWhole) (arg4 : Memref sig .tc .vmem S4x4096 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole)
    (x0 : Vec F S4x3x4096 .f32) (x1 : Vec F S4x3x512 .f32) (x2 : Vec F S4x4096 .f32) (x3 : Vec F S4x4096 .f32) (x4 : Vec F S4x512 .f32) (x5 : Vec F S4x512 .f32) :
    out0_A_6 c i arg1 harg1 arg2 harg2 arg3 harg3 arg4 harg4 arg5 harg5 arg6 harg6 arg7 harg7 x0 x1 x2 x3 x4 x5
      = k0_pay6 (st_k0_t1 Variants.none c none i arg1 harg1 arg2 harg2 arg3 harg3 arg4 harg4 arg5 harg5 arg6 harg6 arg7 harg7 x4 x5 x1 (harg1.unread x0) (harg3.unread x2) (harg4.unread x3)
          k0_pay4 k0_t1_loop.trips) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  rw [View.canon_unit_zero zero2]
  simp only [View.readAt_eq_ld, harg2.read_unread, harg5.read_unread, harg6.read_unread,
    View.ld_unit_zero (S := S4x512) zero2, View.ld_unit_zero (S := S4x3x512) zero3]

end Cert.KernelIdeal.BodyRun

end
-- ==== Proof.Spec.lean ====
/-
  The quantity both programs compute, written once over the extended reals (no program is imported here).

  For a point q of the second contour and a point p of the first, each given by its three coordinates, the sum of their
  squares (s) and the sum of the coordinates themselves (σ), the squared distance ‖p − q + ε‖² with ε added to every
  coordinate of the difference expands to

      (s_q + s_p) − 2 · ⟨q, p⟩ + 2ε · (σ_p − σ_q) + 3ε²,

  where 2, 2ε and 3ε² enter as the three float literals both programs print (the same words on both sides, so their
  values are never looked at). `sqDist` is that expression with ⟨q, p⟩ written as the three products added left to
  right; `nearestAt` is what the result holds for point m of the second contour in batch b: the least squared distance
  over the 4096 points of the first contour, from +∞, clamped below at the literal zero and square-rooted.
-/
import Idealize.ShloMosaic.PureOps.Ideal
import Idealize.ShloMosaic.Lib.ValueIdx
import Mathlib.Data.Finset.Fold

noncomputable section

namespace Cert.NearestPoint

open Idealize.ShloMosaic Idealize.ShloMosaic.ValueIdx

/-- The expanded squared distance of one pair of points: `q` of the second contour (squared norm `s2`, coordinate sum
    `sm2`), `p` of the first (`s1`, `sm1`). -/
def sqDist (s2 sm2 : EReal) (q : Fin 3 → EReal) (s1 sm1 : EReal) (p : Fin 3 → EReal) : EReal :=
  ((s2 + s1) - Ideal.ofBits .f32 0x40000000#32 * ((q 0 * p 0 + q 1 * p 1) + q 2 * p 2))
    + Ideal.ofBits .f32 0x360637BD#32 * (sm1 - sm2) + Ideal.ofBits .f32 0x2C531B32#32

/-- The inner product over the three coordinates as a sum over `Fin 3` is the three products added left to right. -/
theorem sum_three (q p : Fin 3 → EReal) : (∑ d : Fin 3, q d * p d) = (q 0 * p 0 + q 1 * p 1) + q 2 * p 2 :=
  Fin.sum_univ_three _

/-- What the result holds for point `m` of the second contour in batch `b`, from the two contours as `[4, 4096, 3]`
    arrays (`a0` the first, `a1` the second) and the per-point arrays of squared norms and coordinate sums. -/
def nearestAt (a0 a1 : (⟨3, ![4, 4096, 3]⟩ : Shape).Idx → EReal) (s1 sm1 s2 sm2 : (⟨2, ![4, 4096]⟩ : Shape).Idx → EReal)
    (b : Fin 4) (m : Fin 4096) : EReal :=
  Ideal.sqrt (max ((Finset.univ : Finset (Fin 4096)).fold min ⊤ fun l =>
      sqDist (s2 (ix2 b m)) (sm2 (ix2 b m)) (fun d => a1 (ix3 b m d)) (s1 (ix2 b l)) (sm1 (ix2 b l)) (fun d => a0 (ix3 b l d)))
    (Ideal.ofBits .f32 0x00000000#32))

end Cert.NearestPoint

end
-- ==== Proof.MinLaws.lean ====
/-
  The order facts that join the two programs, over the extended reals only (no program is imported here).

  Both programs compute, for every pair (batch b, point m of the second contour), the least value over the points l of
  the first contour of an expression D(b, m, l), and the function g(x) = sqrt(max(x, 0)). One program takes the least
  value FIRST, in eight runs of 512 points carried through `min` from +∞, and applies g to the result; the other
  applies g to every D(b, m, l) and takes the least value of those, in one run of 4096 from +∞. They agree because

    * g is monotone on the extended reals and fixes +∞, so it commutes with `min`, hence with a fold of `min`
      started at +∞ (`map_fold_min`);
    * a fold of `min` over 4096 points is the fold over eight consecutive runs of 512, carried from one run to the
      next (`chunked_min`): both sides are the greatest lower bound of the same 4096 values.

  Nothing here needs the values to be finite: only the order, and that +∞ is its top.
-/
import Idealize.ShloMosaic.PureOps.Ideal
import Mathlib.Data.Finset.Fold
import Mathlib.Order.Monotone.Basic

namespace Cert.NearestPoint

open Idealize.ShloMosaic

/-- The square root of the extended reals (−∞ and the negative reals go to −∞, +∞ to +∞) is monotone. -/
theorem sqrt_mono : Monotone Ideal.sqrt := by
  intro a b hab
  induction a using EReal.rec with
  | bot => exact bot_le
  | top =>
    have : b = ⊤ := top_le_iff.mp hab
    rw [this]
  | coe x =>
    induction b using EReal.rec with
    | bot => exact absurd hab (by simp)
    | top => rw [Ideal.sqrt_top]; exact le_top
    | coe y =>
      have hxy : x ≤ y := EReal.coe_le_coe_iff.mp hab
      rw [Ideal.sqrt_coe, Ideal.sqrt_coe]
      by_cases hx : x < 0
      · rw [if_pos hx]; exact bot_le
      · rw [if_neg hx, if_neg (by linarith : ¬ y < 0)]
        exact EReal.coe_le_coe_iff.mpr (Real.sqrt_le_sqrt hxy)

/-- `x ↦ sqrt (max x z)` is monotone, for any clamp `z`. -/
theorem sqrtClamp_mono (z : EReal) : Monotone fun x : EReal => Ideal.sqrt (max x z) :=
  fun _ _ hab => sqrt_mono (max_le_max hab le_rfl)

/-- and it fixes +∞. -/
theorem sqrtClamp_top (z : EReal) : Ideal.sqrt (max ⊤ z) = ⊤ := by
  rw [max_eq_left le_top, Ideal.sqrt_top]

/-- A monotone map that fixes +∞ goes through a fold of `min` started at +∞. -/
theorem map_fold_min {ι : Type} (g : EReal → EReal) (hg : Monotone g) (htop : g ⊤ = ⊤) (s : Finset ι) (f : ι → EReal) :
    g (s.fold min ⊤ f) = s.fold min ⊤ fun i => g (f i) := by
  have h := Finset.fold_hom (op := (min : EReal → EReal → EReal)) (op' := (min : EReal → EReal → EReal)) (m := g)
    (s := s) (b := ⊤) (f := f) (fun x y => hg.map_min)
  rw [htop] at h
  exact h.symm

/-- The least of 4096 values from +∞ is the least over eight consecutive runs of 512, each taken from +∞ and joined to
    what the earlier runs gave by `min`: a value is below either side exactly when it is below all 4096. -/
theorem chunked_min (d : Fin 4096 → EReal) (st : ℕ → EReal) (h0 : st 0 = ⊤)
    (hs : ∀ (k : ℕ) (hk : k < 8), st (k + 1)
      = min (st k) ((Finset.univ : Finset (Fin 512)).fold min ⊤ fun l' => d ⟨512 * k + l'.val, by omega⟩)) :
    st 8 = (Finset.univ : Finset (Fin 4096)).fold min ⊤ d := by
  have key : ∀ (K : ℕ), K ≤ 8 → ∀ c : EReal, c ≤ st K ↔ ∀ l : Fin 4096, l.val < 512 * K → c ≤ d l := by
    intro K
    induction K with
    | zero =>
      intro _ c
      rw [h0]
      exact ⟨fun _ l hl => absurd hl (by omega), fun _ => le_top⟩
    | succ k ih =>
      intro hk c
      rw [hs k (by omega), le_min_iff, ih (by omega) c, Finset.le_fold_min]
      constructor
      · rintro ⟨h1, -, h2⟩ l hl
        by_cases hlk : l.val < 512 * k
        · exact h1 l hlk
        · have := h2 ⟨l.val - 512 * k, by omega⟩ (Finset.mem_univ _)
          have e : (⟨512 * k + (l.val - 512 * k), by omega⟩ : Fin 4096) = l := Fin.ext (by simp only; omega)
          rw [e] at this
          exact this
      · intro h
        exact ⟨fun l hl => h l (by omega), le_top, fun l' _ => h _ (by simp only; omega)⟩
  refine le_antisymm ?_ ?_
  · rw [Finset.le_fold_min]
    exact ⟨le_top, fun l _ => (key 8 le_rfl (st 8)).mp le_rfl l (by have := l.isLt; omega)⟩
  · rw [key 8 le_rfl]
    intro l _
    exact ((Finset.le_fold_min _).mp le_rfl).2 l (Finset.mem_univ _)

end Cert.NearestPoint
-- ==== Proof.LibRank3Layout.lean ====
/-
  Layout steps on arrays of rank 3, read at an index given by coordinates, and the two sums along one axis of such an
  array at the ideal values.

  A squeeze-and-excite style body works on a stack of `a` matrices at once: it appends or inserts a unit axis by a
  shape cast ([a, b] → [a, b, 1], [a, b] → [a, 1, b]), stretches a unit axis by a broadcast ([1, b, c], [a, b, 1] and
  [a, 1, c] → [a, b, c]), and sums the stack along its last or its middle axis.  Each lemma says which entry of the
  operand the result holds at `(i, j, k)`; the casts keep the row-major position, the broadcasts read coordinate 0 on
  the stretched axis.  The column sum of a single matrix (along axis 0) is here too.
-/
import Idealize.ShloMosaic.Lib.Pipeline.Value
import Idealize.ShloMosaic.Lib.ValueIdx
import Idealize.ShloMosaic.PureOps.Ideal.Laws

namespace Cert.Rank3Layout

open Idealize.ShloMosaic Idealize.ShloMosaic.ValueIdx
open scoped BigOperators

variable {α : Type}

/-- An `[a, b]` matrix cast to `[a, b, 1]` reads, at `(i, j, u)`, the matrix at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One `[1, b, c]` matrix broadcast to a stack `[a, b, c]` reads, at `(i, j, k)`, the matrix at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A stack of columns `[a, b, 1]` broadcast to `[a, b, c]` reads, at `(i, j, k)`, the column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of rows `[a, 1, c]` broadcast to `[a, b, c]` reads, at `(i, j, k)`, the row entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- At the ideal values the sum of an `[a, b, c]` stack along its LAST axis is, at `(i, j)`, the sum over `k` of the
    entries `(i, j, k)`.  The accumulator is the zero word, the neutral element of the sum. -/
theorem sumLast_apply {a b c : ℕ} (src : FVec Ideal ⟨3, ![a, b, c]⟩ .f32)
    (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun d => Fin.ext (by
      match d with
      | ⟨0, _⟩ => rfl
      | ⟨1, _⟩ => rfl
      | ⟨2, _⟩ => rfl)))

/-- At the ideal values the sum of an `[a, b, c]` stack along its MIDDLE axis is, at `(i, k)`, the sum over `j` of the
    entries `(i, j, k)`. -/
theorem sumMiddle_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (funext fun d => Fin.ext (by
      match d with
      | ⟨0, _⟩ => rfl
      | ⟨1, _⟩ => rfl
      | ⟨2, _⟩ => rfl)))

/-- At the ideal values the sum of an `[a, b]` matrix along its FIRST axis is, at column `q`, the sum over the rows
    `p` of the entries `(p, q)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) :=
  (Ideal.multiReduction_add_single src 0x00000000#32 h hφ hacc (ix1 q)).trans
    (Finset.sum_congr rfl fun p _ => congrArg src (funext fun d => Fin.ext (by
      match d with
      | ⟨0, _⟩ => rfl
      | ⟨1, _⟩ => rfl)))

end Cert.Rank3Layout
-- ==== Proof.LibRank3Rows.lean ====
/-
  One row of the middle axis of a rank-3 array, read at an index given by coordinates.

  A body that holds a stack `[a, n, c]` (say a points' coordinates laid out as [batch, coordinate, point]) and works on
  one coordinate at a time takes row `d` of the middle axis by a unit-stride slice `[a, 1, c]` at offsets (0, d, 0) and
  drops the unit axis by a shape cast to `[a, c]`. The slice reads the stack at `(i, d, k)`; the cast keeps the
  row-major position, so it reads its operand at `(i, 0, k)`.
-/
import Idealize.ShloMosaic.Lib.Pipeline.Value
import Idealize.ShloMosaic.Lib.ValueIdx

namespace Cert.Rank3Rows

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The unit-stride slice `[a, 1, c]` of an `[a, n, c]` stack at offsets `(0, d, 0)` reads, at `(i, u, k)`, the stack
    at `(i, d, k)`: row `d` of the middle axis. The offsets are any function equal to `(0, d, 0)` (`hoff`), so that the
    lemma meets a printed literal such as `![0, 1, 0]`. -/
theorem slice_middleRow_apply {a n c : ℕ} (off : Fin 3 → ℕ) (d : Fin n) (hoff : off = ![0, d.val, 0])
    (x : (⟨3, ![a, n, c]⟩ : Shape).Idx → α) (h : (⟨3, ![a, n, c]⟩ : Shape).Slices off ⟨3, ![a, 1, c]⟩)
    (i : Fin a) (u : Fin 1) (k : Fin c) :
    extractStridedSlice ⟨3, ![a, 1, c]⟩ off x h (ix3 i u k) = x (ix3 i d k) := by
  subst hoff
  refine extractStridedSlice_apply _ x h (ix3 i u k) (ix3 i d k) fun ax => ?_
  have hu : u.val = 0 := by omega
  match ax with
  | ⟨0, _⟩ => show i.val = 0 + i.val; omega
  | ⟨1, _⟩ => show d.val = d.val + u.val; omega
  | ⟨2, _⟩ => show k.val = 0 + k.val; omega

end Cert.Rank3Rows
-- ==== Proof.LibMinReduce.lean ====
/-
  A float minimum over ONE axis, read at the extended reals: at each reduced index it is the fold of `min`, from the
  accumulator's value, over that axis's coordinates (the reduced index with the coordinate put back). The twin of the
  library's statement for a maximum over one axis.
-/
import Idealize.ShloMosaic.PureOps.Ideal.Laws

namespace Cert.MinReduce

open Idealize.ShloMosaic

/-- A float `vector.multi_reduction <minimumf>` over one axis, read at `Ideal`: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.MinReduce
-- ==== Proof.LibMinLast.lean ====
/-
  The least entry along the LAST axis of a rank-3 array, at the extended reals, read at an index given by coordinates.

  A `vector.multi_reduction <minimumf>` of an `[a, b, c]` array over its last axis, with the accumulator +∞ (the word
  0x7F800000, the only one the operation is compiled with), holds at `(i, j)` the fold of `min` from +∞ over the
  entries `(i, j, k)`, k running over the last axis.
-/
import proofs.«158326_j77386720740127_2_alg».proof.Proof.LibMinReduce
import Idealize.ShloMosaic.Lib.ValueIdx
import Idealize.ShloMosaic.PureOps.Ideal.Laws

namespace Cert.MinLast

open Idealize.ShloMosaic Idealize.ShloMosaic.ValueIdx

/-- The f32 word 0x7F800000 is +∞. -/
theorem posInf_word : Ideal.ofBits .f32 0x7F800000#32 = ⊤ := by simp [Ideal.ofBits, Ideal.ieee]

/-- At the ideal values the minimum of an `[a, b, c]` array along its LAST axis, from +∞, is at `(i, j)` the fold of
    `min` from +∞ over the entries `(i, j, k)`. -/
theorem minLast_apply {a b c : ℕ} (src : FVec Ideal ⟨3, ![a, b, c]⟩ .f32)
    (h : (⟨3, ![a, b, c]⟩ : Shape).Reduces [2] ⟨2, ![a, b]⟩)
    (hφ : FKind.Formats .f32) (hacc : (0x7F800000#32 : BitVec 32) = 0x7F800000#32) (i : Fin a) (j : Fin b) :
    multiReduction .minimumf [2] ⟨2, ![a, b]⟩ src 0x7F800000#32 h hφ hacc (ix2 i j)
      = (Finset.univ : Finset (Fin c)).fold min ⊤ fun k => src (ix3 i j k) := by
  refine (Cert.MinReduce.multiReduction_minimumf_single (φ := .f32) src 0x7F800000#32 h hφ hacc (ix2 i j)).trans ?_
  rw [Ideal.ofBits_def, posInf_word]
  refine Finset.fold_congr fun k _ => ?_
  exact congrArg src (funext fun d => Fin.ext (by
    match d with
    | ⟨0, _⟩ => rfl
    | ⟨1, _⟩ => rfl
    | ⟨2, _⟩ => rfl))

end Cert.MinLast
-- ==== Proof.BodyMath.lean ====
/-
  One call of the kernel body, at the extended reals, entry by entry.

  The body's output block is `[4, 512]`: entry (b, r) belongs to point r of the block of the second contour the call was
  given, in batch b. Written out, trip k's table entry (b, r, l') is the expanded squared distance `sqDist` between that
  point and point 512·k + l' of the first contour; the trip takes the least over l' from +∞ and joins it to the carried
  value by `min`. Eight trips of 512 exhaust the 4096 points, so the carried value after the loop is the least of the
  4096 squared distances from +∞ (`chunked_min`), and the block entry is its clamp at zero, square-rooted.

  Every step but the last is reading: casts that add or drop a unit axis and broadcasts that stretch it are read at
  (b, r, l'), a strided slice picks one coordinate row, a load at offset 512·k reads the whole buffer 512·k further on.
-/
import proofs.«158326_j77386720740127_2_alg».proof.Proof.BodyRun
import proofs.«158326_j77386720740127_2_alg».proof.Proof.Spec
import proofs.«158326_j77386720740127_2_alg».proof.Proof.MinLaws
import proofs.«158326_j77386720740127_2_alg».proof.Proof.LibRank3Layout
import proofs.«158326_j77386720740127_2_alg».proof.Proof.LibRank3Rows
import proofs.«158326_j77386720740127_2_alg».proof.Proof.LibMinLast
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem

namespace Cert.KernelIdeal.BodyMath

open Cert.KernelIdeal Cert.KernelIdeal.Gen Cert.KernelIdeal.BodyRun Cert.NearestPoint
open Idealize.ShloMosaic.ValueIdx

/-! ## Layout steps of the body read at (b, r, l) -/

/-- A per-point array of the second contour's block, made a column and stretched along the first contour's axis. -/
theorem colStretch (v : FVec Ideal S4x512 .f32) (h1 : S4x512.ShapeCasts S4x512x1) (h2 : S4x512x1.Broadcasts S4x512x512)
    (b : Fin 4) (r l : Fin 512) :
    broadcastTo S4x512x512 (shapeCast S4x512x1 v h1) h2 (ix3 b r l) = v (ix2 b r) :=
  (Cert.Rank3Layout.broadcastTo_ab1_abc_apply (a := 4) (b := 512) (c := 512) _ h2 b r l).trans
    (Cert.Rank3Layout.shapeCast_ab_ab1_apply (a := 4) (b := 512) v h1 b r 0)

/-- A per-point array of the first contour's 512 points, made a row and stretched along the second contour's axis. -/
theorem rowStretch (v : FVec Ideal S4x512 .f32) (h1 : S4x512.ShapeCasts S4x1x512) (h2 : S4x1x512.Broadcasts S4x512x512)
    (b : Fin 4) (r l : Fin 512) :
    broadcastTo S4x512x512 (shapeCast S4x1x512 v h1) h2 (ix3 b r l) = v (ix2 b l) :=
  (Cert.Rank3Layout.broadcastTo_a1c_abc_apply (a := 4) (b := 512) (c := 512) _ h2 b r l).trans
    (Cert.Rank3Layout.shapeCast_ab_a1b_apply (a := 4) (b := 512) v h1 b 0 l)

/-- Coordinate row `d` of a `[4, 3, 512]` block of points, as a `[4, 512]` array. -/
theorem coordRow (off : Fin 3 → ℕ) (d : Fin 3) (hoff : off = ![0, d.val, 0]) (x : FVec Ideal S4x3x512 .f32)
    (hs : S4x3x512.Slices off S4x1x512) (hc : S4x1x512.ShapeCasts S4x512) (b : Fin 4) (r : Fin 512) :
    shapeCast S4x512 (extractStridedSlice S4x1x512 off x hs) hc (ix2 b r) = x (ix3 b d r) :=
  (Cert.Rank3Rows.shapeCast_a1b_ab_apply (a := 4) (b := 512) _ hc b r).trans
    (Cert.Rank3Rows.slice_middleRow_apply (a := 4) (n := 3) (c := 512) off d hoff x hs b 0 r)

/-! ## The body's payloads at an entry -/

/-- The first table of a trip: `s2 + s1 − 2·⟨c2, c1⟩` at (b, r, l). -/
theorem pay7_at (v1 : FVec Ideal S4x512 .f32) (v5 : FVec Ideal S4x3x512 .f32) (v16 : Vec Ideal S4x3x512 .f32)
    (v19 : Vec Ideal S4x512 .f32) (b : Fin 4) (r l : Fin 512) :
    k0_pay7 v1 v5 v16 v19 (ix3 b r l)
      = (v1 (ix2 b r) + v19 (ix2 b l)) - Ideal.ofBits .f32 0x40000000#32
          * ((v5 (ix3 b 0 r) * v16 (ix3 b 0 l) + v5 (ix3 b 1 r) * v16 (ix3 b 1 l)) + v5 (ix3 b 2 r) * v16 (ix3 b 2 l)) := by
  unfold k0_pay7
  simp only [subf_apply, addf_apply, mulf_apply, broadcast_apply, colStretch, rowStretch, shapeCast_self,
    coordRow ![0, 0, 0] 0 rfl, coordRow ![0, 1, 0] 1 rfl, coordRow ![0, 2, 0] 2 rfl]
  rfl

/-- The second table of a trip: `sum1 − sum2` at (b, r, l). -/
theorem pay8_at (v3 : FVec Ideal S4x512 .f32) (v22 : Vec Ideal S4x512 .f32) (b : Fin 4) (r l : Fin 512) :
    k0_pay8 v3 v22 (ix3 b r l) = v22 (ix2 b l) - v3 (ix2 b r) := by
  unfold k0_pay8
  simp only [subf_apply, colStretch, rowStretch, shapeCast_self]

/-- A trip's yield at (b, r): the carried value joined by `min` to the least over l, from +∞, of
    `table1 + 2ε·table2 + 3ε²`. -/
theorem pay5_at (acc : FVec Ideal S4x512 .f32) (v60 v65 : FVec Ideal S4x512x512 .f32) (b : Fin 4) (r : Fin 512) :
    k0_pay5 acc v60 v65 (ix2 b r)
      = min (acc (ix2 b r)) ((Finset.univ : Finset (Fin 512)).fold min ⊤ fun l =>
          (v60 (ix3 b r l) + Ideal.ofBits .f32 0x360637BD#32 * v65 (ix3 b r l)) + Ideal.ofBits .f32 0x2C531B32#32) := by
  unfold k0_pay5
  refine congrArg (min (acc (ix2 b r))) ?_
  refine (Cert.MinLast.minLast_apply (a := 4) (b := 512) (c := 512) _ reduces_S4x512x512_S4x512 (.inl rfl) rfl b r).trans ?_
  exact Finset.fold_congr fun l _ => rfl

/-- The body's last step at (b, r). -/
theorem pay6_at (v8 : FVec Ideal S4x512 .f32) (b : Fin 4) (r : Fin 512) :
    k0_pay6 v8 (ix2 b r) = Ideal.sqrt (max (v8 (ix2 b r)) (Ideal.ofBits .f32 0x00000000#32)) := rfl

/-- The loop starts from +∞. -/
theorem pay4_at (b : Fin 4) (r : Fin 512) : k0_pay4 (F := Ideal) (ix2 b r) = ⊤ := by
  show Ideal.ofBits .f32 0x7F800000#32 = ⊤
  exact Cert.MinLast.posInf_word

/-! ## A trip's loads -/

theorem trips_eq : k0_t1_loop.trips = 8 := by decide +kernel

/-- Trip `k`'s 512 points' coordinates are the whole array's, 512·k further along the point axis. -/
theorem chunk3_at (x0 : Vec Ideal S4x3x4096 .f32) (k : Fin k0_t1_loop.trips) (b : Fin 4) (d : Fin 3) (l : Fin 512) :
    chunk3 x0 k (ix3 b d l) = x0 (ix3 b d ⟨512 * k.val + l.val, by have := k.isLt; have := trips_eq; omega⟩) := by
  unfold chunk3
  show x0 ((Rect.unit (s := S4x3x4096) (k0_off1 k) S4x3x512.size (k0_off1_inb k)).idx (ix3 b d l)) = _
  refine congrArg x0 (funext fun a => Fin.ext ?_)
  have ho := k0_off1_eq k
  match a with
  | ⟨0, _⟩ => show (k0_off1 k) 0 + 1 * b.val = b.val; rw [ho]; show 0 + 1 * b.val = b.val; omega
  | ⟨1, _⟩ => show (k0_off1 k) 1 + 1 * d.val = d.val; rw [ho]; show 0 + 1 * d.val = d.val; omega
  | ⟨2, _⟩ => show (k0_off1 k) 2 + 1 * l.val = 512 * k.val + l.val; rw [ho]; show 512 * k.val + 1 * l.val = _; omega

/-- and likewise a per-point array's 512 entries. -/
theorem chunk2_at (x : Vec Ideal S4x4096 .f32) (k : Fin k0_t1_loop.trips) (b : Fin 4) (l : Fin 512) :
    chunk2 x k (ix2 b l) = x (ix2 b ⟨512 * k.val + l.val, by have := k.isLt; have := trips_eq; omega⟩) := by
  unfold chunk2
  show x ((Rect.unit (s := S4x4096) (k0_off2 k) S4x512.size (k0_off2_inb k)).idx (ix2 b l)) = _
  refine congrArg x (funext fun a => Fin.ext ?_)
  have ho := k0_off2_eq k
  match a with
  | ⟨0, _⟩ => show (k0_off2 k) 0 + 1 * b.val = b.val; rw [ho]; show 0 + 1 * b.val = b.val; omega
  | ⟨1, _⟩ => show (k0_off2 k) 1 + 1 * l.val = 512 * k.val + l.val; rw [ho]; show 512 * k.val + 1 * l.val = _; omega

/-! ## The block entry -/

/-- THE BODY'S BLOCK, entry (b, r): on buffers holding c1 (`x0`), a block of c2 (`x1`), s1 (`x2`), sum1 (`x3`) and blocks
    of s2 (`x4`) and sum2 (`x5`), the least over all 4096 points l of the first contour of the expanded squared distance
    between block point r and l, from +∞, clamped at zero and square-rooted. -/
theorem block_entry (c : Dev nD) (i : grid0.Coords) (arg1 : Memref sig .tc .vmem S4x3x4096 .f32) (harg1 : arg1.IsWhole) (arg2 : Memref sig .tc .vmem S4x3x512 .f32) (harg2 : arg2.IsWhole) (arg3 : Memref sig .tc .vmem S4x4096 .f32) (harg3 : arg3.IsWhole) (arg4 : Memref sig .tc .vmem S4x4096 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole)
    (x0 : Vec Ideal S4x3x4096 .f32) (x1 : Vec Ideal S4x3x512 .f32) (x2 : Vec Ideal S4x4096 .f32) (x3 : Vec Ideal S4x4096 .f32) (x4 : Vec Ideal S4x512 .f32) (x5 : Vec Ideal S4x512 .f32)
    (b : Fin 4) (r : Fin 512) :
    out0_A_6 (F := Ideal) c i arg1 harg1 arg2 harg2 arg3 harg3 arg4 harg4 arg5 harg5 arg6 harg6 arg7 harg7 x0 x1 x2 x3 x4 x5 (ix2 b r)
      = Ideal.sqrt (max ((Finset.univ : Finset (Fin 4096)).fold min ⊤ fun l =>
            sqDist (x4 (ix2 b r)) (x5 (ix2 b r)) (fun d => x1 (ix3 b d r)) (x2 (ix2 b l)) (x3 (ix2 b l)) (fun d => x0 (ix3 b d l)))
          (Ideal.ofBits .f32 0x00000000#32)) := by
  rw [body_value, pay6_at]
  refine congrArg (fun z => Ideal.sqrt (max z (Ideal.ofBits .f32 0x00000000#32))) ?_
  refine (congrArg (fun n => st_k0_t1 (F := Ideal) Variants.none c none i arg1 harg1 arg2 harg2 arg3 harg3 arg4 harg4 arg5 harg5 arg6 harg6 arg7 harg7 x4 x5 x1 (harg1.unread x0) (harg3.unread x2)
    (harg4.unread x3) k0_pay4 n (ix2 b r)) trips_eq).trans ?_
  refine chunked_min _ (fun n => st_k0_t1 (F := Ideal) Variants.none c none i arg1 harg1 arg2 harg2 arg3 harg3 arg4 harg4 arg5 harg5 arg6 harg6 arg7 harg7 x4 x5 x1 (harg1.unread x0) (harg3.unread x2)
    (harg4.unread x3) k0_pay4 n (ix2 b r)) (pay4_at b r) fun k hk => ?_
  have hkt : k < k0_t1_loop.trips := by rw [trips_eq]; exact hk
  refine (congrFun (trip_step Variants.none c none i arg1 harg1 arg2 harg2 arg3 harg3 arg4 harg4 arg5 harg5 arg6 harg6 arg7 harg7 x4 x5 x1 x0 x2 x3 k0_pay4 ⟨k, hkt⟩) (ix2 b r)).trans ?_
  rw [pay5_at]
  refine congrArg (min _) (Finset.fold_congr fun l _ => ?_)
  rw [pay7_at, pay8_at]
  unfold sqDist k0_pay1 k0_pay2 k0_pay3
  simp only [shapeCast_self, chunk3_at, chunk2_at]

end Cert.KernelIdeal.BodyMath

end
-- ==== Proof.Tail.lean ====
/-
  The last lines both programs share, as ONE function at the extended reals.

  Each program ends by scaling the `[4, 4096]` array of nearest-point distances by the one entry of `resolution`
  (broadcast over the array), summing each of the four rows from zero and dividing by 4096: the row means. The lines are
  the same host operations in both programs, so they are named once and never opened: the two programs' results are equal
  as soon as the arrays going in are.
-/
import proofs.«158326_j77386720740127_2_alg».proof.Proof.Gen.KernelIdeal
import Idealize.ShloMosaic.PureOps.Ideal

noncomputable section

namespace Cert.NearestPoint

open Idealize.ShloMosaic Cert.KernelIdeal Cert.KernelIdeal.Gen

/-- Row means of `x` scaled by the one entry of `res`. -/
def rowMeans (x : FVec Ideal S4x4096 .f32) (res : FVec Ideal S1 .f32) : FVec Ideal S4 .f32 :=
  Host.divf (F := Ideal)
    (Host.reduceAdd (F := Ideal)
      (mulf x (broadcastInDim S4x4096 ![0, 1] bcast_S1x1_S4x4096_0_1 (broadcastInDim S1x1 ![1] bcast_S1_S1x1_1 res)))
      (constant (F := Ideal) S_ .f32 0x00000000#32) reducesTo_S4x4096_S4_d1 h_S_)
    (broadcastInDim S4 ![] bcast_S_S4 (constant (F := Ideal) S_ .f32 0x45800000#32))

end Cert.NearestPoint

end
-- ==== Proof.KernelArray.lean ====
/-
  From one call of the body to the whole output array, and on to the kernel program's result.

  The grid has eight points. Point t is given block t (512 consecutive points) of the second contour's arrays — its
  transposed coordinates, squared norms and coordinate sums — and the WHOLE of the first contour's; it writes back block t
  of the `[4, 4096]` output. A block's entry (b, r) sits at (b, 512·t + r) of its array, so by the body's value the
  output array holds at (b, p), p = 512·t + r, the clamped square root of the least expanded squared distance between
  point p of the second contour and the 4096 points of the first (`outAt`), and the eight blocks tile the array.

  Before the region the host lines transpose the two contours to `[4, 3, 4096]` and sum squares and coordinates along
  the last axis; after it they take the row means scaled by `resolution` (`rowMeans`, never opened). `run` re-posts the
  generated frame run with the result buffer NAMED: `rowMeans` of `outArr` of those six arrays.
-/
import proofs.«158326_j77386720740127_2_alg».proof.Proof.BodyMath
import proofs.«158326_j77386720740127_2_alg».proof.Proof.Tail
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BodyMath Cert.NearestPoint
open Idealize.ShloMosaic.ValueIdx

variable (m : (ℓ : Loc nD τ sig) → Buf (Elt Ideal) ℓ) (ρ : Dev nD → PrngReg)

/-! ## The output array as one function of the region's six input arrays -/

/-- Entry (b, p) of the output from the arrays the region is given: the transposed contours `c1t`, `c2t`
    (`[4, 3, 4096]`) and the per-point squared norms and coordinate sums of each. -/
def outAt (c1t c2t : S4x3x4096.Idx → EReal) (s1 sm1 s2 sm2 : S4x4096.Idx → EReal) (b : Fin 4) (p : Fin 4096) : EReal :=
  Ideal.sqrt (max ((Finset.univ : Finset (Fin 4096)).fold min ⊤ fun l =>
      sqDist (s2 (ix2 b p)) (sm2 (ix2 b p)) (fun d => c2t (ix3 b d p)) (s1 (ix2 b l)) (sm1 (ix2 b l)) (fun d => c1t (ix3 b d l)))
    (Ideal.ofBits .f32 0x00000000#32))

/-- The whole output array. -/
def outArr (c1t c2t : S4x3x4096.Idx → EReal) (s1 sm1 s2 sm2 : S4x4096.Idx → EReal) : S4x4096.Idx → EReal := fun i =>
  outAt c1t c2t s1 sm1 s2 sm2 ⟨(i 0).val, (i 0).isLt⟩ ⟨(i 1).val, (i 1).isLt⟩

theorem outArr_ix2 (c1t c2t : S4x3x4096.Idx → EReal) (s1 sm1 s2 sm2 : S4x4096.Idx → EReal) (b : Fin 4) (p : Fin 4096) :
    outArr c1t c2t s1 sm1 s2 sm2 (ix2 b p) = outAt c1t c2t s1 sm1 s2 sm2 b p := rfl

/-! ## Where each window's block sits at point t -/

/-- The printed index maps, decided once over the grid: the first contour's three windows stay at block 0; the second
    contour's three and the output's are at block t along the point axis. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

theorem lt8 (t : Fin cfg0.N) : t.val < 8 := by have := t.isLt; have h : cfg0.N = 8 := N_0; omega

/-- The position in the whole array of entry r of block t. -/
abbrev at_ (t : Fin cfg0.N) (r : Fin 512) : Fin 4096 := ⟨512 * t.val + r.val, by have := lt8 t; omega⟩

theorem blk0_at (c : Dev nD) (t : Fin cfg0.N) (b : Fin 4) (d : Fin 3) (l : Fin 4096) :
    iblk m c 0 t (ix3 b d l) = V m c main_v0 (ix3 b d l) := by
  show V m c main_v0 (((cfg0.win 0).blk t).view.emb (ix3 b d l)) = V m c main_v0 (ix3 b d l)
  obtain ⟨f00, f01, f02, f10, f11, f12, f20, f21, f30, f31, f40, f41, f50, f51, f60, f61⟩ := idx_facts t
  refine congrArg (V m c main_v0) (funext fun a => Fin.ext ?_)
  match a with
  | ⟨0, _⟩ => show win0_0.index t (0 : Fin 3) * 4 + 1 * b.val = b.val; omega
  | ⟨1, _⟩ => show win0_0.index t (1 : Fin 3) * 3 + 1 * d.val = d.val; omega
  | ⟨2, _⟩ => show win0_0.index t (2 : Fin 3) * 4096 + 1 * l.val = l.val; omega

theorem blk1_at (c : Dev nD) (t : Fin cfg0.N) (b : Fin 4) (d : Fin 3) (r : Fin 512) :
    iblk m c 1 t (ix3 b d r) = V m c main_v1 (ix3 b d (at_ t r)) := by
  show V m c main_v1 (((cfg0.win 1).blk t).view.emb (ix3 b d r)) = V m c main_v1 (ix3 b d (at_ t r))
  obtain ⟨f00, f01, f02, f10, f11, f12, f20, f21, f30, f31, f40, f41, f50, f51, f60, f61⟩ := idx_facts t
  refine congrArg (V m c main_v1) (funext fun a => Fin.ext ?_)
  match a with
  | ⟨0, _⟩ => show win0_1.index t (0 : Fin 3) * 4 + 1 * b.val = b.val; omega
  | ⟨1, _⟩ => show win0_1.index t (1 : Fin 3) * 3 + 1 * d.val = d.val; omega
  | ⟨2, _⟩ => show win0_1.index t (2 : Fin 3) * 512 + 1 * r.val = 512 * t.val + r.val; omega

theorem blk2_at (c : Dev nD) (t : Fin cfg0.N) (b : Fin 4) (l : Fin 4096) :
    iblk m c 2 t (ix2 b l) = V m c main_v3 (ix2 b l) := by
  show V m c main_v3 (((cfg0.win 2).blk t).view.emb (ix2 b l)) = V m c main_v3 (ix2 b l)
  obtain ⟨f00, f01, f02, f10, f11, f12, f20, f21, f30, f31, f40, f41, f50, f51, f60, f61⟩ := idx_facts t
  refine congrArg (V m c main_v3) (funext fun a => Fin.ext ?_)
  match a with
  | ⟨0, _⟩ => show win0_2.index t (0 : Fin 2) * 4 + 1 * b.val = b.val; omega
  | ⟨1, _⟩ => show win0_2.index t (1 : Fin 2) * 4096 + 1 * l.val = l.val; omega

theorem blk3_at (c : Dev nD) (t : Fin cfg0.N) (b : Fin 4) (l : Fin 4096) :
    iblk m c 3 t (ix2 b l) = V m c main_v4 (ix2 b l) := by
  show V m c main_v4 (((cfg0.win 3).blk t).view.emb (ix2 b l)) = V m c main_v4 (ix2 b l)
  obtain ⟨f00, f01, f02, f10, f11, f12, f20, f21, f30, f31, f40, f41, f50, f51, f60, f61⟩ := idx_facts t
  refine congrArg (V m c main_v4) (funext fun a => Fin.ext ?_)
  match a with
  | ⟨0, _⟩ => show win0_3.index t (0 : Fin 2) * 4 + 1 * b.val = b.val; omega
  | ⟨1, _⟩ => show win0_3.index t (1 : Fin 2) * 4096 + 1 * l.val = l.val; omega

theorem blk4_at (c : Dev nD) (t : Fin cfg0.N) (b : Fin 4) (r : Fin 512) :
    iblk m c 4 t (ix2 b r) = V m c main_v6 (ix2 b (at_ t r)) := by
  show V m c main_v6 (((cfg0.win 4).blk t).view.emb (ix2 b r)) = V m c main_v6 (ix2 b (at_ t r))
  obtain ⟨f00, f01, f02, f10, f11, f12, f20, f21, f30, f31, f40, f41, f50, f51, f60, f61⟩ := idx_facts t
  refine congrArg (V m c main_v6) (funext fun a => Fin.ext ?_)
  match a with
  | ⟨0, _⟩ => show win0_4.index t (0 : Fin 2) * 4 + 1 * b.val = b.val; omega
  | ⟨1, _⟩ => show win0_4.index t (1 : Fin 2) * 512 + 1 * r.val = 512 * t.val + r.val; omega

theorem blk5_at (c : Dev nD) (t : Fin cfg0.N) (b : Fin 4) (r : Fin 512) :
    iblk m c 5 t (ix2 b r) = V m c main_v7 (ix2 b (at_ t r)) := by
  show V m c main_v7 (((cfg0.win 5).blk t).view.emb (ix2 b r)) = V m c main_v7 (ix2 b (at_ t r))
  obtain ⟨f00, f01, f02, f10, f11, f12, f20, f21, f30, f31, f40, f41, f50, f51, f60, f61⟩ := idx_facts t
  refine congrArg (V m c main_v7) (funext fun a => Fin.ext ?_)
  match a with
  | ⟨0, _⟩ => show win0_5.index t (0 : Fin 2) * 4 + 1 * b.val = b.val; omega
  | ⟨1, _⟩ => show win0_5.index t (1 : Fin 2) * 512 + 1 * r.val = 512 * t.val + r.val; omega

theorem blk6_emb (t : Fin cfg0.N) (b : Fin 4) (r : Fin 512) :
    ((cfg0.win 6).blk t).view.emb (ix2 b r) = ix2 b (at_ t r) := by
  obtain ⟨f00, f01, f02, f10, f11, f12, f20, f21, f30, f31, f40, f41, f50, f51, f60, f61⟩ := idx_facts t
  refine funext fun a => Fin.ext ?_
  match a with
  | ⟨0, _⟩ => show win0_6.index t (0 : Fin 2) * 4 + 1 * b.val = b.val; omega
  | ⟨1, _⟩ => show win0_6.index t (1 : Fin 2) * 512 + 1 * r.val = 512 * t.val + r.val; omega

/-! ## What point t writes back, the cover, the array -/

/-- WHAT POINT t WRITES BACK is block t of `outArr` of the arrays as the region finds them. -/
theorem flushed_eq (c : Dev nD) (t : Fin cfg0.N) :
    (dats m 0 c).flushed 6 t = ((cfg0.win 6).blk t).view.read (Elt Ideal) (outArr (V m c main_v0) (V m c main_v1) (V m c main_v3) (V m c main_v4) (V m c main_v6) (V m c main_v7)) := by
  show (cfg0.win 6).cut (grid0.coords t) ((dats m 0 c).after 6 t) = _
  rw [after0_6]
  unfold outsAt0
  funext j
  obtain ⟨b, r, rfl⟩ : ∃ (b : Fin 4) (r : Fin 512), j = ix2 b r := ⟨j 0, j 1, eq_ix2 j⟩
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 b r)
    = outArr (V m c main_v0) (V m c main_v1) (V m c main_v3) (V m c main_v4) (V m c main_v6) (V m c main_v7) (((cfg0.win 6).blk t).view.emb (ix2 b r))
  refine (block_entry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) b r).trans ?_
  rw [blk6_emb, outArr_ix2]
  unfold outAt
  simp only [blk0_at m c t, blk1_at m c t, blk2_at m c t, blk3_at m c t, blk4_at m c t, blk5_at m c t]

/-- An index of the output array is in point t's block iff each coordinate is in the block's range on its axis. -/
theorem mem_blk (t : Fin cfg0.N) (i : S4x4096.Idx) :
    i ∈ ((cfg0.win 6).blk t).view.set ↔ ∀ a : Fin 2, win0_6.index t a * S4x512.size a ≤ (i a).val ∧ (i a).val < win0_6.index t a * S4x512.size a + S4x512.size a := by
  show i ∈ ((View.whole main_v8).slice (win0_6.rect t)).set ↔ _
  rw [View.set_slice_whole, Rect.mem_set_unit]
  exact Iff.rfl

/-- The eight blocks tile the output: column p is in block p / 512. -/
theorem cover (i : S4x4096.Idx) : ∃ t : Fin cfg0.N, (cfg0.win 6).flush t = true ∧ i ∈ ((cfg0.win 6).blk t).view.set := by
  have h0 : (i 0).val < 4 := (i 0).isLt
  have h1 : (i 1).val < 4096 := (i 1).isLt
  have hN : cfg0.N = 8 := N_0
  refine ⟨⟨(i 1).val / 512, by rw [hN]; omega⟩, flush0_6 _, ?_⟩
  rw [mem_blk]
  obtain ⟨f00, f01, f02, f10, f11, f12, f20, f21, f30, f31, f40, f41, f50, f51, f60, f61⟩ := idx_facts ⟨(i 1).val / 512, by rw [hN]; omega⟩
  intro a
  match a with
  | ⟨0, _⟩ =>
    show win0_6.index ⟨(i 1).val / 512, _⟩ (0 : Fin 2) * 4 ≤ (i 0).val ∧ (i 0).val < win0_6.index ⟨(i 1).val / 512, _⟩ (0 : Fin 2) * 4 + 4
    rw [f60]; omega
  | ⟨1, _⟩ =>
    show win0_6.index ⟨(i 1).val / 512, _⟩ (1 : Fin 2) * 512 ≤ (i 1).val ∧ (i 1).val < win0_6.index ⟨(i 1).val / 512, _⟩ (1 : Fin 2) * 512 + 512
    rw [f61]; show (i 1).val / 512 * 512 ≤ (i 1).val ∧ (i 1).val < (i 1).val / 512 * 512 + 512; omega

/-- THE OUTPUT ARRAY after the run. -/
theorem final (c : Dev nD) : (dats m 0 c).arrAt 6 cfg0.N = outArr (V m c main_v0) (V m c main_v1) (V m c main_v3) (V m c main_v4) (V m c main_v6) (V m c main_v7) :=
  (dats m 0 c).arrAt_eq_of_cover 6 _ (fun t _ => flushed_eq m c t) cover

end Cert.KernelIdeal.ArrayValue

end
-- ==== Proof.KernelRun.lean ====
/-
  The kernel program's run, with its result named.

  Before the region the host lines write the six arrays the region is given, each one operation of the arguments: the two
  contours transposed to `[4, 3, 4096]`, and for each contour the sums along the coordinate axis of its squares and of
  its coordinates, from zero. After the region the host lines take `rowMeans` of the region's output array and
  `resolution`. So every weakly fair execution ends with the result buffer at `rowMeans` of `outArr` of those six arrays,
  and the arguments as they were.
-/
import proofs.«158326_j77386720740127_2_alg».proof.Proof.KernelArray
import Idealize.ShloMosaic.Lib.Pipeline.Value
import Idealize.ShloMosaic.Lib.StableHlo.Run
import Idealize.ShloMosaic.Lib.Tactic
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.ArrayValue Cert.NearestPoint

variable (m : (ℓ : Loc nD τ sig) → Buf (Elt Ideal) ℓ) (ρ : Dev nD → PrngReg)

/-! ## The six arrays the region finds -/

/-- A contour transposed to `[4, 3, 4096]`. -/
abbrev tr (a : FVec Ideal S4x4096x3 .f32) : FVec Ideal S4x3x4096 .f32 :=
  transpose S4x3x4096 [0, 2, 1] a transposes_S4x4096x3_S4x3x4096_0_2_1
/-- The sums along the coordinate axis, from zero. -/
abbrev sumCoords (a : FVec Ideal S4x4096x3 .f32) : FVec Ideal S4x4096 .f32 :=
  Host.reduceAdd (F := Ideal) a (constant (F := Ideal) S_ .f32 0x00000000#32) reducesTo_S4x4096x3_S4x4096_d2 h_S_

theorem V_v0 (c : Dev nD) : (V m c main_v0 : S4x3x4096.Idx → EReal) = tr (m ((c : Thread nD τ).loc main_arg0)) := by
  show StableHlo.after hostOps0 (fun b => m (c, b)) (Proc.devRef .tc main_v0) = _
  after_results
theorem V_v1 (c : Dev nD) : (V m c main_v1 : S4x3x4096.Idx → EReal) = tr (m ((c : Thread nD τ).loc main_arg1)) := by
  show StableHlo.after hostOps0 (fun b => m (c, b)) (Proc.devRef .tc main_v1) = _
  after_results
theorem V_v3 (c : Dev nD) : (V m c main_v3 : S4x4096.Idx → EReal)
    = sumCoords (mulf (m ((c : Thread nD τ).loc main_arg0)) (m ((c : Thread nD τ).loc main_arg0))) := by
  show StableHlo.after hostOps0 (fun b => m (c, b)) (Proc.devRef .tc main_v3) = _
  after_results
theorem V_v4 (c : Dev nD) : (V m c main_v4 : S4x4096.Idx → EReal) = sumCoords (m ((c : Thread nD τ).loc main_arg0)) := by
  show StableHlo.after hostOps0 (fun b => m (c, b)) (Proc.devRef .tc main_v4) = _
  after_results
theorem V_v6 (c : Dev nD) : (V m c main_v6 : S4x4096.Idx → EReal)
    = sumCoords (mulf (m ((c : Thread nD τ).loc main_arg1)) (m ((c : Thread nD τ).loc main_arg1))) := by
  show StableHlo.after hostOps0 (fun b => m (c, b)) (Proc.devRef .tc main_v6) = _
  after_results
theorem V_v7 (c : Dev nD) : (V m c main_v7 : S4x4096.Idx → EReal) = sumCoords (m ((c : Thread nD τ).loc main_arg1)) := by
  show StableHlo.after hostOps0 (fun b => m (c, b)) (Proc.devRef .tc main_v7) = _
  after_results

/-- The output array of the region as a function of the two contours. -/
abbrev outOf (a0 a1 : FVec Ideal S4x4096x3 .f32) : S4x4096.Idx → EReal :=
  outArr (tr a0) (tr a1) (sumCoords (mulf a0 a0)) (sumCoords a0) (sumCoords (mulf a1 a1)) (sumCoords a1)

theorem final_args (c : Dev nD) :
    (dats m 0 c).arrAt 6 cfg0.N = outOf (m ((c : Thread nD τ).loc main_arg0)) (m ((c : Thread nD τ).loc main_arg1)) := by
  rw [final, V_v0, V_v1, V_v3, V_v4, V_v6, V_v7]

/-! ## The lines after the region -/

/-- The result buffer after the host lines that follow the region: they read the region's output array (what the run
    left in it) and `resolution` (untouched), and are the shared last lines of those two. -/
theorem result_eq (c : Dev nD) :
    Pipeline.afterTail₀ cfgs (dats m) 0 (V0 m) [hostOps1] c main_v14
      = rowMeans (outOf (m ((c : Thread nD τ).loc main_arg0)) (m ((c : Thread nD τ).loc main_arg1))) (m ((c : Thread nD τ).loc main_arg2)) := by
  unfold Pipeline.afterTail₀
  show StableHlo.after hostOps1 _ (Proc.devRef .tc main_v14) = _
  after_results
  have h8 : Pipeline.withArrays (cfgs 0).spec c (V0 m c) (fun w => (dats m 0 c).arrAt w (cfgs 0).N) (Proc.devRef .tc main_v8)
      = outOf (m ((c : Thread nD τ).loc main_arg0)) (m ((c : Thread nD τ).loc main_arg1)) :=
    (Pipeline.withArrays_arr spec0 launch0.win.arr_inj c _ _ 6).trans (final_args m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [h8, h2]
  rfl

/-! ## The run, read -/

/-- Every weakly fair execution of the kernel program terminates with the result buffer at the row means of the
    nearest-point distances (`outOf` of the two contours) scaled by `resolution`, and the arguments unchanged. -/
theorem run : θ_run defs (onTc (τ := τ) (main (F := Ideal))) ⟨m, fun _ => 0, ρ⟩ fun r => ∀ c : Dev nD,
      r.2.mem ((c : Thread nD τ).loc main_v14)
        = rowMeans (outOf (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- A transposed contour at (b, d, l) is the contour at (b, l, d). -/
theorem tr_at (a : FVec Ideal S4x4096x3 .f32) (b : Fin 4) (d : Fin 3) (l : Fin 4096) :
    tr a (Idealize.ShloMosaic.ValueIdx.ix3 b d l) = a (Idealize.ShloMosaic.ValueIdx.ix3 b l d) :=
  Idealize.ShloMosaic.ValueIdx.transpose_ix3_021_apply (m := 4) (a := 4096) (b := 3) a transposes_S4x4096x3_S4x3x4096_0_2_1 b d l

end Cert.KernelIdeal.RunValue

end
-- ==== Proof.RefValue.lean ====
/-
  The reference program at the extended reals, entry by entry.

  The reference forms the whole `[4, 4096, 4096]` table of expanded squared distances — entry (b, p, l) pairs point p of
  the second contour with point l of the first, the inner product a contraction over the three coordinates —, clamps
  every entry at zero, takes its square root, and only then the least entry of each row from +∞. Its table entry is
  `sqDist` once the contraction over `Fin 3` is written as three products; since x ↦ sqrt(max(x, 0)) is monotone and
  fixes +∞ it goes through the fold of `min`, so the row's least root is the root of the row's least entry: `nearestAt`.
  The lines after that are the shared `rowMeans`.
-/
import proofs.«158326_j77386720740127_2_alg».proof.Proof.Spec
import proofs.«158326_j77386720740127_2_alg».proof.Proof.MinLaws
import proofs.«158326_j77386720740127_2_alg».proof.Proof.Tail
import proofs.«158326_j77386720740127_2_alg».proof.Proof.LibMinLast
import proofs.«158326_j77386720740127_2_alg».proof.Proof.Gen.ReferenceIdeal.Read
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.NearestPoint
open Idealize.ShloMosaic.ValueIdx

/-- The reference's table entry (b, p, l), before the clamp: the expanded squared distance of point p of the second
    contour (`x1`) and point l of the first (`x0`), with the per-point arrays the reference computes. -/
theorem table_at (x0 x1 : (⟨S4x4096x3, .f32⟩ : BufTy).Contents (Elt Ideal)) (b : Fin 4) (p l : Fin 4096) :
    val_main_v24 (F := Ideal) x0 x1 (ix3 b p l)
      = sqDist (val_main_v3 (F := Ideal) x1 (ix2 b p)) (val_main_v5 (F := Ideal) x1 (ix2 b p)) (fun d => x1 (ix3 b p d))
          (val_main_v1 (F := Ideal) x0 (ix2 b l)) (val_main_v4 (F := Ideal) x0 (ix2 b l)) (fun d => x0 (ix3 b l d)) := by
  have e7 : idx_main_v7 (idx_main_v9 (ix3 b p l)) = ix2 b p :=
    funext fun a => Fin.ext (by match a with | ⟨0, _⟩ => rfl | ⟨1, _⟩ => rfl)
  have e8 : idx_main_v8 (idx_main_v10 (ix3 b p l)) = ix2 b l :=
    funext fun a => Fin.ext (by match a with | ⟨0, _⟩ => rfl | ⟨1, _⟩ => rfl)
  have e15 : idx_main_v15 (idx_main_v17 (ix3 b p l)) = ix2 b l :=
    funext fun a => Fin.ext (by match a with | ⟨0, _⟩ => rfl | ⟨1, _⟩ => rfl)
  have e16 : idx_main_v16 (idx_main_v18 (ix3 b p l)) = ix2 b p :=
    funext fun a => Fin.ext (by match a with | ⟨0, _⟩ => rfl | ⟨1, _⟩ => rfl)
  have el : ∀ k : Fin 3, lidx_main_v6 (ix3 b p l) k = ix3 b p k := fun k =>
    funext fun a => Fin.ext (by match a with | ⟨0, _⟩ => rfl | ⟨1, _⟩ => rfl | ⟨2, _⟩ => rfl)
  have er : ∀ k : Fin 3, ridx_main_v6 (ix3 b p l) k = ix3 b l k := fun k =>
    funext fun a => Fin.ext (by match a with | ⟨0, _⟩ => rfl | ⟨1, _⟩ => rfl | ⟨2, _⟩ => rfl)
  rw [val_main_v24_apply, val_main_v22_apply, val_main_v14_apply, val_main_v11_apply, val_main_v9_apply, val_main_v7_apply,
    val_main_v10_apply, val_main_v8_apply, val_main_v13_apply, val_main_v12_apply, val_main_cst_3_apply, val_main_v6_apply,
    val_main_v21_apply, val_main_v20_apply, val_main_cst_4_apply, val_main_v19_apply, val_main_v17_apply, val_main_v15_apply,
    val_main_v18_apply, val_main_v16_apply, val_main_v23_apply, val_main_cst_5_apply, e7, e8, e15, e16]
  simp only [el, er]
  rw [sum_three (fun d => x1 (ix3 b p d)) (fun d => x0 (ix3 b l d))]
  rfl

/-- The host's least-entry reduction of a `[4, 4096, 4096]` table along its last axis from +∞, at (b, p): the fold of
    `min` from +∞ over the row's entries. -/
theorem rowMin_at (y : FVec Ideal S4x4096x4096 .f32) (b : Fin 4) (p : Fin 4096) :
    (Host.reduce (FloatOps.minimumf (F := Ideal) (φ := .f32)) y (val_main_cst_7 (F := Ideal)) reducesTo_S4x4096x4096_S4x4096_d2 h_S_
        : FVec Ideal S4x4096 .f32) (ix2 b p)
      = (Finset.univ : Finset (Fin 4096)).fold min ⊤ fun l => y (ix3 b p l) := by
  have hr : S4x4096x4096.Reduces [2] S4x4096 := by decide
  refine (Host.reduce_eq_fold_single (FloatOps.minimumf (F := Ideal) (φ := .f32)) y (val_main_cst_7 (F := Ideal)) reducesTo_S4x4096x4096_S4x4096_d2 hr h_S_ (ix2 b p)).trans ?_
  rw [val_main_cst_7_apply, Ideal.ofBits_def, Cert.MinLast.posInf_word]
  refine Finset.fold_congr fun l _ => ?_
  exact congrArg y (funext fun d => Fin.ext (by
    match d with
    | ⟨0, _⟩ => rfl
    | ⟨1, _⟩ => rfl
    | ⟨2, _⟩ => rfl))

/-- THE REFERENCE'S ARRAY of nearest-point distances at (b, p). -/
theorem nearest_at (x0 x1 : (⟨S4x4096x3, .f32⟩ : BufTy).Contents (Elt Ideal)) (b : Fin 4) (p : Fin 4096) :
    val_main_v28 (F := Ideal) x0 x1 (ix2 b p)
      = nearestAt x0 x1 (val_main_v1 (F := Ideal) x0) (val_main_v4 (F := Ideal) x0) (val_main_v3 (F := Ideal) x1)
          (val_main_v5 (F := Ideal) x1) b p := by
  unfold val_main_v28 nearestAt
  rw [rowMin_at, map_fold_min (fun x => Ideal.sqrt (max x (Ideal.ofBits .f32 0x00000000#32))) (sqrtClamp_mono _) (sqrtClamp_top _)]
  refine Finset.fold_congr fun l _ => ?_
  rw [val_main_v27_apply, val_main_v26_apply, val_main_v25_apply, val_main_cst_6_apply, table_at]
  rfl

/-- The reference's result is the shared last lines applied to that array. -/
theorem result_eq (x0 x1 : (⟨S4x4096x3, .f32⟩ : BufTy).Contents (Elt Ideal)) (x2 : (⟨S1, .f32⟩ : BufTy).Contents (Elt Ideal)) :
    val_main_v34 (F := Ideal) x0 x1 x2 = rowMeans (val_main_v28 (F := Ideal) x0 x1) x2 := rfl

end Cert.ReferenceIdeal.RefValue

end
-- ==== Proof.lean ====
/-
  The certificate: the contour-distance kernel against its jnp reference, at the extended reals.

  Both programs compute, for each of four batches, the mean over the 4096 points of the second contour of the distance
  from that point to the nearest of the 4096 points of the first contour (distances with ε added to each coordinate of
  the difference, the squared distance expanded into squared norms, an inner product and coordinate sums), scaled by
  `resolution`. They differ in two ways, and both are equalities over the extended reals that ask nothing of the inputs:

    * the kernel writes the inner product over the three coordinates as three products added left to right, the
      reference as a contraction over `Fin 3`: the same sum;
    * the kernel takes the least squared distance first — in eight runs of 512 points of the first contour, carried
      through `min` from +∞, for each block of 512 points of the second — and then clamps at zero and takes the square
      root; the reference clamps and roots every entry of the 4096 × 4096 table and then takes each row's least entry.
      The clamped root is monotone and fixes +∞, so it commutes with the least entry, and the eight runs exhaust the row.

  The lines around the kernel's region (transposes and sums before it, the scaled row means after it) are host
  operations the reference has too; the row means are carried as one function, never opened. The ideal pass rewrote no
  operation of the kernel, so `preserves` is `True`. The three frames are the generated frame certificates of the two
  kernel programs and the reference's generated run with its result dropped.
-/
import proofs.«158326_j77386720740127_2_alg».proof.Defs
import proofs.«158326_j77386720740127_2_alg».proof.Proof.Gen.Kernel
import proofs.«158326_j77386720740127_2_alg».proof.Proof.Gen.Kernel.Skeleton
import proofs.«158326_j77386720740127_2_alg».proof.Proof.Gen.Kernel.Loops
import proofs.«158326_j77386720740127_2_alg».proof.Proof.Gen.Kernel.Launch
import proofs.«158326_j77386720740127_2_alg».proof.Proof.Gen.Kernel.Points
import proofs.«158326_j77386720740127_2_alg».proof.Proof.Gen.Kernel.Frame
import proofs.«158326_j77386720740127_2_alg».proof.Proof.Gen.KernelIdeal
import proofs.«158326_j77386720740127_2_alg».proof.Proof.Gen.KernelIdeal.Skeleton
import proofs.«158326_j77386720740127_2_alg».proof.Proof.Gen.KernelIdeal.Loops
import proofs.«158326_j77386720740127_2_alg».proof.Proof.Gen.KernelIdeal.Launch
import proofs.«158326_j77386720740127_2_alg».proof.Proof.Gen.KernelIdeal.Points
import proofs.«158326_j77386720740127_2_alg».proof.Proof.Gen.KernelIdeal.Frame
import proofs.«158326_j77386720740127_2_alg».proof.Proof.Gen.ReferenceIdeal
import proofs.«158326_j77386720740127_2_alg».proof.Proof.Gen.ReferenceIdeal.Run
import proofs.«158326_j77386720740127_2_alg».proof.Proof.Gen.ReferenceIdeal.Read
import proofs.«158326_j77386720740127_2_alg».proof.Proof.Gen.Pre_finite_inputs
import proofs.«158326_j77386720740127_2_alg».proof.Proof.KernelRun
import proofs.«158326_j77386720740127_2_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx Cert.NearestPoint

/-- THE BRIDGE: the array of nearest-point distances the kernel's region writes is the reference's, entry by entry — both
    are `nearestAt` of the two contours, once the kernel's transposed contours are read back at (b, l, d). -/
theorem arrays_eq (a0 a1 : FVec Ideal Cert.KernelIdeal.S4x4096x3 .f32) :
    Cert.KernelIdeal.RunValue.outOf a0 a1 = Cert.ReferenceIdeal.Read.val_main_v28 (F := Ideal) a0 a1 := by
  funext i
  obtain ⟨b, p, rfl⟩ : ∃ (b : Fin 4) (p : Fin 4096), i = ix2 b p := ⟨i 0, i 1, eq_ix2 i⟩
  rw [Cert.ReferenceIdeal.RefValue.nearest_at]
  show Cert.KernelIdeal.ArrayValue.outAt _ _ _ _ _ _ b p = _
  unfold Cert.KernelIdeal.ArrayValue.outAt nearestAt
  simp only [Cert.KernelIdeal.RunValue.tr_at]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the row means of one and the same array. -/
theorem algebraic : Cert.algebraic_KernelIdeal_ReferenceIdeal := by
  intro m ρ m' ρ' _ hagree
  refine ⟨fun c => rowMeans (Cert.KernelIdeal.RunValue.outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, (hagree c).1, (hagree c).2.1,
    (hagree c).2.2, ← arrays_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
